-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S3072x768 : Shape := ⟨2, ![3072, 768]⟩
abbrev S768x3072 : Shape := ⟨2, ![768, 3072]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x4096x768 .f32) (main_arg1 : FVec F S3072x768 .f32) (main_arg2 : FVec F S768x3072 .f32) (main_arg3 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S768x3072 .f32 := Host.absf main_arg2
  let main_cst_2 : FVec F S_ .f32 := constant S_ .f32 0x7F800000#32
  let main_v10 : FVec F S768x3072 .f32 := broadcastInDim S768x3072 ![] bcast_S_S768x3072 main_cst_2
  let main_v11 : IVec S768x3072 1 := cmpf .olt main_v9 main_v10
  let main_c_3 : IVec S_ 1 := constantI S_ 1 1#1
  let main_v12 : IVec S_ 1 := (fun x v => Host.reduce IntOp.andi x v reducesTo_S768x3072_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x4096x768 : Shape := ⟨3, ![4, 4096, 768]⟩
abbrev S3072x768 : Shape := ⟨2, ![3072, 768]⟩
abbrev S768x3072 : Shape := ⟨2, ![768, 3072]⟩
abbrev S768 : Shape := ⟨1, ![768]⟩
abbrev S16384x768 : Shape := ⟨2, ![16384, 768]⟩
abbrev S_ : Shape := ⟨0, ![]⟩
abbrev S3072 : Shape := ⟨1, ![3072]⟩
abbrev S1x3072 : Shape := ⟨2, ![1, 3072]⟩
abbrev S1x768 : Shape := ⟨2, ![1, 768]⟩
abbrev S256x768 : Shape := ⟨2, ![256, 768]⟩
abbrev S256 : Shape := ⟨1, ![256]⟩
abbrev S256x1 : Shape := ⟨2, ![256, 1]⟩
abbrev S256x3072 : Shape := ⟨2, ![256, 3072]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x768, .f32⟩
  | .hbm, ⟨1, _⟩ => ⟨S3072x768, .f32⟩
  | .hbm, ⟨2, _⟩ => ⟨S768x3072, .f32⟩
  | .hbm, ⟨3, _⟩ => ⟨S768, .f32⟩
  | .hbm, ⟨4, _⟩ => ⟨S16384x768, .f32⟩
  | .hbm, ⟨5, _⟩ => ⟨S768x3072, .f32⟩
  | .hbm, ⟨6, _⟩ => ⟨S768x3072, .bf16⟩
  | .hbm, ⟨7, _⟩ => ⟨S3072x768, .f32⟩
  | .hbm, ⟨8, _⟩ => ⟨S3072x768, .bf16⟩
  | .hbm, ⟨9, _⟩ => ⟨S3072x768, .f32⟩
  | .hbm, ⟨10, _⟩ => ⟨S_, .f32⟩
  | .hbm, ⟨11, _⟩ => ⟨S3072, .f32⟩
  | .hbm, ⟨12, _⟩ => ⟨S1x3072, .f32⟩
  | .hbm, ⟨13, _⟩ => ⟨S1x768, .f32⟩
  | .hbm, ⟨14, _⟩ => ⟨S16384x768, .f32⟩
  | .hbm, ⟨15, _⟩ => ⟨S4x4096x768, .f32⟩
  | .local _ .vmem, ⟨0, _⟩ => ⟨S256x768, .f32⟩
  | .local _ .vmem, ⟨1, _⟩ => ⟨S256x768, .f32⟩
  | .local _ .vmem, ⟨2, _⟩ => ⟨S768x3072, .bf16⟩
  | .local _ .vmem, ⟨3, _⟩ => ⟨S3072x768, .bf16⟩
  | .local _ .vmem, ⟨4, _⟩ => ⟨S1x3072, .f32⟩
  | .local _ .vmem, ⟨5, _⟩ => ⟨S1x768, .f32⟩
  | .local _ .vmem, ⟨6, _⟩ => ⟨S256x768, .f32⟩
  | .local _ .vmem, ⟨7, _⟩ => ⟨S256x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x768_S16384x768 : S4x4096x768.ShapeCasts S16384x768
  transposes_S3072x768_S768x3072_1_0 : S3072x768.Transposes [1, 0] S768x3072
  bitsLt_bf16_f32 : FTy.bits .bf16 < FTy.bits .f32
  transposes_S768x3072_S3072x768_1_0 : S768x3072.Transposes [1, 0] S3072x768
  reducesTo_S3072x768_S3072_d1 : S3072x768.ReducesTo [1] S3072
  h_S_ : 0 < S_.numel
  shapeCasts_S3072_S1x3072 : S3072.ShapeCasts S1x3072
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  reduces_S256x768_S256 : S256x768.Reduces [1] S256
  shapeCasts_S256_S256x1 : S256.ShapeCasts S256x1
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  broadcasts_S256x1_S256x3072 : S256x1.Broadcasts S256x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S16384x768_S4x4096x768 : S16384x768.ShapeCasts S4x4096x768
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S16384x768.size a
  hwx0_0 : ∀ i : grid0.Coords, EltTy.bits .f32 = 32 ∨ (Rect.block (s := S16384x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x3072.size a ≤ S768x3072.size a
  hwx0_1 : ∀ i : grid0.Coords, EltTy.bits .bf16 = 32 ∨ (Rect.block (s := S768x3072) S768x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S3072x768.size a
  hwx0_2 : ∀ i : grid0.Coords, EltTy.bits .bf16 = 32 ∨ (Rect.block (s := S3072x768) S3072x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S16384x768.size a
  hwx0_5 : ∀ i : grid0.Coords, EltTy.bits .f32 = 32 ∨ (Rect.block (s := S16384x768) S256x768.size (cc0_transform_5 i) (hinb0_5 i)).WholeWords (EltTy.packing .f32)

variable [Facts₀]

def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x768 : Shape := ⟨3, ![4, 4096, 768]⟩
abbrev S3072x768 : Shape := ⟨2, ![3072, 768]⟩
abbrev S768x3072 : Shape := ⟨2, ![768, 3072]⟩
abbrev S768 : Shape := ⟨1, ![768]⟩
abbrev S_ : Shape := ⟨0, ![]⟩
abbrev S4x4096 : Shape := ⟨2, ![4, 4096]⟩
abbrev S4x4096x1 : Shape := ⟨3, ![4, 4096, 1]⟩
abbrev S3072 : Shape := ⟨1, ![3072]⟩
abbrev S4x4096x3072 : Shape := ⟨3, ![4, 4096, 3072]⟩
abbrev S1x1x3072 : Shape := ⟨3, ![1, 1, 3072]⟩
abbrev S1x1x768 : Shape := ⟨3, ![1, 1, 768]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S3072x768, .f32⟩
  | .hbm, ⟨2, _⟩ => ⟨S768x3072, .f32⟩
  | .hbm, ⟨3, _⟩ => ⟨S768, .f32⟩
  | .hbm, ⟨4, _⟩ => ⟨S4x4096x768, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S3072x768, .f32⟩
  | .hbm, ⟨9, _⟩ => ⟨S_, .f32⟩
  | .hbm, ⟨10, _⟩ => ⟨S3072, .f32⟩
  | .hbm, ⟨11, _⟩ => ⟨S4x4096x3072, .f32⟩
  | .hbm, ⟨12, _⟩ => ⟨S_, .f32⟩
  | .hbm, ⟨13, _⟩ => ⟨S4x4096x3072, .f32⟩
  | .hbm, ⟨14, _⟩ => ⟨S4x4096x3072, .f32⟩
  | .hbm, ⟨15, _⟩ => ⟨S4x4096x3072, .f32⟩
  | .hbm, ⟨16, _⟩ => ⟨S4x4096x3072, .f32⟩
  | .hbm, ⟨17, _⟩ => ⟨S1x1x3072, .f32⟩
  | .hbm, ⟨18, _⟩ => ⟨S4x4096x3072, .f32⟩
  | .hbm, ⟨19, _⟩ => ⟨S4x4096x3072, .f32⟩
  | .hbm, ⟨20, _⟩ => ⟨S4x4096x3072, .f32⟩
  | .hbm, ⟨21, _⟩ => ⟨S_, .f32⟩
  | .hbm, ⟨22, _⟩ => ⟨S4x4096x3072, .f32⟩
  | .hbm, ⟨23, _⟩ => ⟨S4x4096x3072, .f32⟩
  | .hbm, ⟨24, _⟩ => ⟨S4x4096x3072, .f32⟩
  | .hbm, ⟨25, _⟩ => ⟨S4x4096x768, .f32⟩
  | .hbm, ⟨26, _⟩ => ⟨S1x1x768, .f32⟩
  | .hbm, ⟨27, _⟩ => ⟨S4x4096x768, .f32⟩
  | .hbm, ⟨28, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S4x4096x768_S4x4096_d2 : S4x4096x768.ReducesTo [2] S4x4096
  h_S_ : 0 < S_.numel
  bcast_S4x4096_S4x4096x1_0_1 : S4x4096.BroadcastsInDim S4x4096x1 (![0, 1] : Fin 2 → Fin S4x4096x1.rank)
  reducesTo_S3072x768_S3072_d1 : S3072x768.ReducesTo [1] S3072
  bcast_S_S4x4096x3072 : S_.BroadcastsInDim S4x4096x3072 (![] : Fin 0 → Fin S4x4096x3072.rank)
  bcast_S4x4096x1_S4x4096x3072_0_1_2 : S4x4096x1.BroadcastsInDim S4x4096x3072 (![0, 1, 2] : Fin 3 → Fin S4x4096x3072.rank)
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  dot_S4x4096x768_S3072x768_S4x4096x3072_2_1_01_0_n_n_wf : DotDims.WF S4x4096x768 S3072x768 S4x4096x3072 [2] [1] [0, 1] [0] [] []
  dot_S4x4096x3072_S768x3072_S4x4096x768_2_1_01_0_n_n_wf : DotDims.WF S4x4096x3072 S768x3072 S4x4096x768 [2] [1] [0, 1] [0] [] []

variable [Facts₀]

def dot_S4x4096x768_S3072x768_S4x4096x3072_2_1_01_0_n_n : DotDims S4x4096x768 S3072x768 S4x4096x3072 where
  lhsContracting := [2]
  rhsContracting := [1]
  lhsNonContracting := [0, 1]
  rhsNonContracting := [0]
  lhsBatch := []
  rhsBatch := []
  wf := dot_S4x4096x768_S3072x768_S4x4096x3072_2_1_01_0_n_n_wf
def dot_S4x4096x3072_S768x3072_S4x4096x768_2_1_01_0_n_n : DotDims S4x4096x3072 S768x3072 S4x4096x768 where
  lhsContracting := [2]
  rhsContracting := [1]
  lhsNonContracting := [0, 1]
  rhsNonContracting := [0]
  lhsBatch := []
  rhsBatch := []
  wf := dot_S4x4096x3072_S768x3072_S4x4096x768_2_1_01_0_n_n_wf

class Facts : Prop extends Facts₀ where

variable [Facts]
-- ==== Proof.RbfSpec.lean ====
/-
  The radial-basis layer as ONE function of its four arrays, on the extended reals.

  For tokens `x : [4, 4096, 768]`, centers `c : [3072, 768]`, projection weights `w : [768, 3072]` and a bias
  `β : [768]`, the layer's value at token `(b, l)` and output feature `d` is

      out (b, l, d) = ∑ₖ exp (dist² (b, l, k) · (-1/2)) · w (d, k) + β d,
      dist² (b, l, k) = ‖x (b, l, ·)‖² - 2 · ⟨x (b, l, ·), c (k, ·)⟩ + ‖c (k, ·)‖²,

  the squared distance from the token to center `k` expanded into two squared norms and a cross term, each a sum over
  the 768 features. The constants `2` and `-1/2` are kept as the binary32 words that denote them, so that a program
  spelling the same word meets them without evaluating it. One law is needed beside this: dividing the negated
  distance by `2` is multiplying the distance by `-1/2`, on every extended real (the infinities included).
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The tokens `[4, 4096, 768]`, the same tokens as `16384` rows, the centers, the projection weights, the bias. -/
abbrev Tokens : Shape := ⟨3, ![4, 4096, 768]⟩
abbrev Rows : Shape := ⟨2, ![16384, 768]⟩
abbrev Centers : Shape := ⟨2, ![3072, 768]⟩
abbrev Weights : Shape := ⟨2, ![768, 3072]⟩
abbrev Bias : Shape := ⟨1, ![768]⟩

/-- The binary32 words of `2` and of `-1/2`, read as extended reals. -/
abbrev two : EReal := Ideal.ofBits .f32 0x40000000#32
abbrev negHalf : EReal := Ideal.ofBits .f32 0xBF000000#32

section Spec
variable (x : Tokens.Idx → EReal) (c : Centers.Idx → EReal) (w : Weights.Idx → EReal) (β : Bias.Idx → EReal)

/-- The squared norm of token `(b, l)`. -/
def tokenSq (b : Fin 4) (l : Fin 4096) : EReal := ∑ d : Fin 768, x (ix3 b l d) * x (ix3 b l d)

/-- The squared norm of center `k`. -/
def centerSq (k : Fin 3072) : EReal := ∑ d : Fin 768, c (ix2 k d) * c (ix2 k d)

/-- The inner product of token `(b, l)` with center `k`. -/
def cross (b : Fin 4) (l : Fin 4096) (k : Fin 3072) : EReal := ∑ d : Fin 768, x (ix3 b l d) * c (ix2 k d)

/-- The squared distance from token `(b, l)` to center `k`, expanded. -/
def distSq (b : Fin 4) (l : Fin 4096) (k : Fin 3072) : EReal :=
  tokenSq x b l - two * cross x c b l k + centerSq c k

/-- The layer at token `(b, l)`, output feature `d`. -/
def out (b : Fin 4) (l : Fin 4096) (d : Fin 768) : EReal :=
  (∑ k : Fin 3072, Ideal.exp (distSq x c b l k * negHalf) * w (ix2 d k)) + β (ix1 d)

/-- The layer as an array over the tokens' shape. -/
def layer : Tokens.Idx → EReal := fun i => out x c w β (i 0) (i 1) (i 2)

theorem layer_ix3 (b : Fin 4) (l : Fin 4096) (d : Fin 768) : layer x c w β (ix3 b l d) = out x c w β b l d := rfl

end Spec

/-- The word `0x40000000` denotes the real `2`. -/
theorem two_eq : two = ((2 : ℝ) : EReal) := by
  simp [two, Ideal.ofBits, Ideal.ieee, -EReal.coe_mul]; norm_num

/-- The word `0xBF000000` denotes the real `-1/2`. -/
theorem negHalf_eq : negHalf = ((-(1 / 2) : ℝ) : EReal) := by
  simp [negHalf, Ideal.ofBits, Ideal.ieee, -EReal.coe_mul]; norm_num

/-- Halving the negated distance is scaling the distance by `-1/2`: on every extended real `(-t) / 2 = t · (-1/2)`,
    since the quotient by a nonzero real is the product with its reciprocal and a sign moves freely through a product. -/
theorem neg_div_two (t : EReal) : Ideal.div (-t) two = t * negHalf := by
  rw [two_eq, negHalf_eq, Ideal.div_coe (by norm_num : (2 : ℝ) ≠ 0), EReal.coe_neg, mul_neg, neg_mul]

end Cert.Rbf

end
-- ==== Proof.RbfReference.lean ====
/-
  The reference computes the radial-basis layer.

  Its program is read one operation at a time: the token norms and the center norms are sums over the feature
  axis started from the word of `0`, the cross terms a contraction over the feature axis, the squared distance
  `‖x‖² - 2·⟨x, c⟩ + ‖c‖²` assembled by broadcasts, then negated, divided by `2` and exponentiated, and the result a
  contraction of the weights over the 3072 centers plus the bias. Every index the operations compose is the
  evident one, coordinate by coordinate; the one step that is not a renaming is `(-t) / 2 = t · (-1/2)`.
-/
import proofs.«150898_j61186104098896_1_alg».proof.Proof.Gen.ReferenceIdeal.Read
import proofs.«150898_j61186104098896_1_alg».proof.Proof.RbfSpec

noncomputable section

open scoped BigOperators

namespace Cert.Rbf.Reference

open Cert.ReferenceIdeal Cert.ReferenceIdeal.Read Idealize.ShloMosaic Idealize.ShloMosaic.ValueIdx Cert.Rbf

variable (x : Tokens.Idx → EReal) (c : Centers.Idx → EReal) (w : Weights.Idx → EReal) (β : Bias.Idx → EReal)

/-- The reference's exponentiated term at token `(b, l)` and center `k` is `exp (dist² · (-1/2))`. -/
theorem weight_apply (b : Fin 4) (l : Fin 4096) (k : Fin 3072) :
    val_main_v16 (F := Ideal) x c (ix3 b l k) = Ideal.exp (distSq x c b l k * negHalf) := by
  have e1 : ∀ d : Fin 768, idx_main_v1 (idx_main_v2 (idx_main_v8 (ix3 b l k))) d = ix3 b l d := fun d =>
    funext fun a => Fin.ext (by match a with | ⟨0, _⟩ => rfl | ⟨1, _⟩ => rfl | ⟨2, _⟩ => rfl)
  have e5l : ∀ d : Fin 768, lidx_main_v5 (ix3 b l k) d = ix3 b l d := fun d =>
    funext fun a => Fin.ext (by match a with | ⟨0, _⟩ => rfl | ⟨1, _⟩ => rfl | ⟨2, _⟩ => rfl)
  have e5r : ∀ d : Fin 768, ridx_main_v5 (ix3 b l k) d = ix2 k d := fun d =>
    funext fun a => Fin.ext (by match a with | ⟨0, _⟩ => rfl | ⟨1, _⟩ => rfl)
  have e4 : ∀ d : Fin 768, idx_main_v4 (idx_main_v10 (idx_main_v11 (ix3 b l k))) d = ix2 k d := fun d =>
    funext fun a => Fin.ext (by match a with | ⟨0, _⟩ => rfl | ⟨1, _⟩ => rfl)
  rw [val_main_v16_apply, val_main_v15_apply, val_main_v13_apply, val_main_v12_apply, val_main_v9_apply,
    val_main_v8_apply, val_main_v2_apply, val_main_v1_apply, val_main_v7_apply, val_main_v6_apply,
    val_main_cst_1_apply, val_main_v5_apply, val_main_v11_apply, val_main_v10_apply, val_main_v4_apply,
    val_main_v14_apply, val_main_cst_2_apply]
  simp only [val_main_v0_apply, val_main_v3_apply, val_main_cst_apply, val_main_cst_0_apply, e1, e5l, e5r, e4,
    Ideal.hostUnary_exp_def, Ideal.hostDivf_def, Ideal.hostNegf_def, Ideal.negf_def, Ideal.addf_def, Ideal.subf_def,
    Ideal.mulf_def, Ideal.ofBits_def, Ideal.ofBits_zero_f32, zero_add]
  rw [neg_div_two]
  rfl

/-- The reference's result, as a function of its four arguments, is the layer. -/
theorem result_eq : val_main_v20 (F := Ideal) x c w β = layer x c w β := by
  funext i
  obtain ⟨b, l, d, rfl⟩ : ∃ (b : Fin 4) (l : Fin 4096) (d : Fin 768), i = ix3 b l d := ⟨i 0, i 1, i 2, eq_ix3 i⟩
  have el : ∀ k : Fin 3072, lidx_main_v17 (ix3 b l d) k = ix3 b l k := fun k =>
    funext fun a => Fin.ext (by match a with | ⟨0, _⟩ => rfl | ⟨1, _⟩ => rfl | ⟨2, _⟩ => rfl)
  have er : ∀ k : Fin 3072, ridx_main_v17 (ix3 b l d) k = ix2 d k := fun k =>
    funext fun a => Fin.ext (by match a with | ⟨0, _⟩ => rfl | ⟨1, _⟩ => rfl)
  have eb : idx_main_v18 (idx_main_v19 (ix3 b l d)) = ix1 d :=
    funext fun a => Fin.ext (by match a with | ⟨0, _⟩ => rfl)
  rw [val_main_v20_apply, val_main_v17_apply, val_main_v19_apply, val_main_v18_apply, eb, layer_ix3]
  simp only [el, er, weight_apply, Ideal.addf_def]
  rfl

end Cert.Rbf.Reference

end
-- ==== Proof.RbfHost.lean ====
/-
  What the kernel finds when its grid starts: the five arrays the host lines in front of it prepare.

  The tokens `[4, 4096, 768]` are reshaped to `16384` rows (row `r` is token `(r / 4096, r % 4096)`); the centers and
  the weights are transposed (and change float format, which is the identity on the extended reals); the center norms
  `‖c k‖²` are summed on the host from the word of `0` and laid out as one row; the bias is laid out as one row.
  Each is read here at an index, as the entry of the argument array it is.
-/
import proofs.«150898_j61186104098896_1_alg».proof.Proof.Gen.KernelIdeal.Frame
import proofs.«150898_j61186104098896_1_alg».proof.Proof.RbfSpec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.Rbf.Host

open Cert.KernelIdeal Cert.KernelIdeal.Gen Idealize.ShloMosaic Idealize.ShloMosaic.TcCoe Idealize.SL.Sem
open Idealize.ShloMosaic.StableHlo Idealize.ShloMosaic.ValueIdx Cert.Rbf

variable (m : (ℓ : Loc nD τ sig) → Buf (Elt Ideal) ℓ) (c : Dev nD)

/-- The four argument arrays on core `c`. -/
abbrev tokens : Tokens.Idx → EReal := m ((c.tc : Thread nD τ).loc main_arg0)
abbrev centers : Centers.Idx → EReal := m ((c.tc : Thread nD τ).loc main_arg1)
abbrev weights : Weights.Idx → EReal := m ((c.tc : Thread nD τ).loc main_arg2)
abbrev bias : Bias.Idx → EReal := m ((c.tc : Thread nD τ).loc main_arg3)

/-- The rows the kernel reads are the tokens reshaped. -/
theorem rows_eq : (V m c main_v0 : S16384x768.Idx → EReal)
    = shapeCast S16384x768 (tokens m c) shapeCasts_S4x4096x768_S16384x768 := by
  show StableHlo.after hostOps0 (fun b => m (c, b)) (Proc.devRef .tc main_v0) = _
  after_results
  rfl

/-- Row `r`, feature `d` is token `(r / 4096, r % 4096)`'s feature `d`: the two have one row-major position. -/
theorem rows_apply (r : Fin 16384) (d : Fin 768) :
    (V m c main_v0 : S16384x768.Idx → EReal) (ix2 r d)
      = tokens m c (ix3 (⟨r.val / 4096, by omega⟩ : Fin 4) (⟨r.val % 4096, Nat.mod_lt _ (by decide)⟩ : Fin 4096) d) := by
  rw [rows_eq]
  refine shapeCast_apply _ _ _ _ ?_
  rw [Shape.rowMajor_val_three, Shape.rowMajor_val_two]
  show (r.val / 4096 * 4096 + r.val % 4096) * 768 + d.val = r.val * 768 + d.val
  have := Nat.div_add_mod' r.val 4096
  omega

/-- The centers as the kernel reads them: transposed. -/
theorem centersT_eq : (V m c main_v2 : S768x3072.Idx → EReal)
    = truncf (F := Ideal) .bf16 (transpose S768x3072 [1, 0] (centers m c) transposes_S3072x768_S768x3072_1_0) bitsLt_bf16_f32 := by
  show StableHlo.after hostOps0 (fun b => m (c, b)) (Proc.devRef .tc main_v2) = _
  after_results

theorem centersT_apply (d : Fin 768) (k : Fin 3072) :
    (V m c main_v2 : S768x3072.Idx → EReal) (ix2 d k) = centers m c (ix2 k d) := by
  rw [centersT_eq, truncf_apply, transpose_ix2_apply]

/-- The weights as the kernel reads them: transposed. -/
theorem weightsT_eq : (V m c main_v4 : S3072x768.Idx → EReal)
    = truncf (F := Ideal) .bf16 (transpose S3072x768 [1, 0] (weights m c) transposes_S768x3072_S3072x768_1_0) bitsLt_bf16_f32 := by
  show StableHlo.after hostOps0 (fun b => m (c, b)) (Proc.devRef .tc main_v4) = _
  after_results

theorem weightsT_apply (k : Fin 3072) (q : Fin 768) :
    (V m c main_v4 : S3072x768.Idx → EReal) (ix2 k q) = weights m c (ix2 q k) := by
  rw [weightsT_eq, truncf_apply, transpose_ix2_apply]

/-- The host's sum over the feature axis of a `[3072, 768]` array, started from the word of `0`, at row `k`. -/
theorem featureSum_apply (y : FVec Ideal S3072x768 .f32) (k : Fin 3072) :
    Host.reduceAdd (F := Ideal) y (constant (F := Ideal) S_ .f32 0x00000000#32) reducesTo_S3072x768_S3072_d1 h_S_ (ix1 k)
      = ∑ d : Fin 768, y (ix2 k d) := by
  simp only [Host.reduceAdd, Ideal.hostReduceAdd_def]
  rw [Ideal.hostReduceAdd_single reducesTo_S3072x768_S3072_d1 (by decide), constant_apply, Ideal.ofBits_zero_f32, zero_add]
  exact Finset.sum_congr rfl fun d _ => congrArg y (funext fun a => Fin.ext (by
    match a with
    | ⟨0, _⟩ => rfl
    | ⟨1, _⟩ => rfl))

/-- The center norms as the kernel reads them: one row. -/
theorem norms_eq : (V m c main_v7 : S1x3072.Idx → EReal)
    = shapeCast S1x3072 (Host.reduceAdd (F := Ideal) (mulf (centers m c) (centers m c))
        (constant (F := Ideal) S_ .f32 0x00000000#32) reducesTo_S3072x768_S3072_d1 h_S_) shapeCasts_S3072_S1x3072 := by
  show StableHlo.after hostOps0 (fun b => m (c, b)) (Proc.devRef .tc main_v7) = _
  after_results
  rfl

theorem norms_apply (k : Fin 3072) :
    (V m c main_v7 : S1x3072.Idx → EReal) (ix2 (0 : Fin 1) k) = centerSq (centers m c) k := by
  rw [norms_eq, shapeCast_a_1a_apply, featureSum_apply]
  rfl

/-- The bias as the kernel reads it: one row. -/
theorem biasRow_eq : (V m c main_v8 : S1x768.Idx → EReal) = shapeCast S1x768 (bias m c) shapeCasts_S768_S1x768 := by
  show StableHlo.after hostOps0 (fun b => m (c, b)) (Proc.devRef .tc main_v8) = _
  after_results
  rfl

theorem biasRow_apply (q : Fin 768) : (V m c main_v8 : S1x768.Idx → EReal) (ix2 (0 : Fin 1) q) = bias m c (ix1 q) := by
  rw [biasRow_eq, shapeCast_a_1a_apply]

end Cert.Rbf.Host

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RbfBlock.lean ====
/-
  One block of 256 rows through the kernel body, read at an index.

  The body takes a block `X` of 256 rows, the centers transposed `Cᵀ : [768, 3072]`, the center norms as a row
  `[1, 3072]`, the weights transposed `Wᵀ : [3072, 768]` and the bias as a row `[1, 768]`, and stores

      (p, q) ↦ ∑ₖ exp ((‖X p‖² - 2 · (X · Cᵀ) (p, k) + norms k) · (-1/2)) · Wᵀ (k, q) + bias q.

  The row norm is a sum over the 768 lanes laid out as a column and spread over the 3072 centers; the two products are
  sums over the contracted coordinate; the changes of float format in front of the products are the identity on the
  extended reals. So whenever the five blocks are the matching pieces of tokens, centers, weights and bias, the stored
  entry is the layer's value at the row's token.
-/
import proofs.«150898_j61186104098896_1_alg».proof.Proof.Gen.KernelIdeal.Skeleton
import proofs.«150898_j61186104098896_1_alg».proof.Proof.RbfSpec
import proofs.«150898_j61186104098896_1_alg».proof.Proof.LibBlock
import proofs.«150898_j61186104098896_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf.Block

open Cert.KernelIdeal Cert.KernelIdeal.Gen Idealize.ShloMosaic Idealize.ShloMosaic.ValueIdx Cert.Rbf

/-- A sum over the 768 lanes of a `[256, 768]` block, read at row `p`. -/
theorem laneSum_apply (v : FVec Ideal S256x768 .f32) (h : S256x768.Reduces [1] S256) (hφ : FKind.Formats .f32)
    (hacc : (0x00000000#32 : BitVec 32) = 0x00000000#32) (p : Fin 256) :
    multiReduction .add [1] S256 v 0x00000000#32 h hφ hacc (ix1 p) = ∑ d : Fin 768, v (ix2 p d) :=
  (Ideal.multiReduction_add_single v 0x00000000#32 h hφ hacc (ix1 p)).trans
    (Finset.sum_congr rfl fun d _ => congrArg v (funext fun a => Fin.ext (by
      match a with
      | ⟨0, _⟩ => rfl
      | ⟨1, _⟩ => rfl)))

section Body
variable (X : FVec Ideal S256x768 .f32) (Ct : FVec Ideal S768x3072 .bf16) (N : FVec Ideal S1x3072 .f32)
  (Wt : FVec Ideal S3072x768 .bf16) (B : FVec Ideal S1x768 .f32)

/-- The squared distances of the block's rows to the centers, as the body assembles them. -/
def dist : FVec Ideal S256x3072 .f32 :=
  addf (subf (broadcastTo S256x3072 (shapeCast S256x1 (multiReduction .add [1] S256 (mulf X X) 0x00000000#32
      reduces_S256x768_S256 (.inl rfl) rfl) shapeCasts_S256_S256x1) broadcasts_S256x1_S256x3072)
    (mulf (broadcast S256x3072 (Scalar.ofBits (F := Ideal) .f32 0x40000000#32))
      (FloatOps.matmul dot_S256x768_S768x3072_S256x3072_1_0_0_1_n_n none (truncf .bf16 X bitsLt_bf16_f32) Ct
        (constant S256x3072 .f32 0x00000000#32))))
    (broadcastTo S256x3072 N broadcasts_S1x3072_S256x3072)

/-- The stored block is the exponentiated distances times the transposed weights, plus the bias row. -/
theorem pay_eq : k0_pay1 (F := Ideal) X Ct N Wt B
    = addf (FloatOps.matmul dot_S256x3072_S3072x768_S256x768_1_0_0_1_n_n none
        (truncf .bf16 (exp (mulf (dist X Ct N) (broadcast S256x3072 (Scalar.ofBits (F := Ideal) .f32 0xBF000000#32))))
          bitsLt_bf16_f32) Wt (constant S256x768 .f32 0x00000000#32))
      (broadcastTo S256x768 B broadcasts_S1x768_S256x768) := by
  unfold k0_pay1 dist
  simp only [shapeCast_self]

/-- The squared distance at row `p`, center `k`. -/
theorem dist_apply (p : Fin 256) (k : Fin 3072) :
    dist X Ct N (ix2 p k)
      = (∑ d : Fin 768, X (ix2 p d) * X (ix2 p d)) - two * (∑ d : Fin 768, X (ix2 p d) * Ct (ix2 d k))
        + N (ix2 (0 : Fin 1) k) := by
  unfold dist
  rw [addf_apply, subf_apply, mulf_apply, broadcast_apply, Cert.LibColumn.broadcastTo_a1_ab_apply,
    Cert.LibColumn.shapeCast_a_a1_apply, laneSum_apply, broadcastTo_1b_ab_apply]
  rw [Cert.LibBlock.matmul_zero_ix2 dot_S256x768_S768x3072_S256x3072_1_0_0_1_n_n rfl rfl rfl rfl rfl rfl]
  rfl

/-- The stored entry at row `p`, feature `q`. -/
theorem pay_apply (p : Fin 256) (q : Fin 768) :
    k0_pay1 (F := Ideal) X Ct N Wt B (ix2 p q)
      = (∑ k : Fin 3072, Ideal.exp (((∑ d : Fin 768, X (ix2 p d) * X (ix2 p d))
            - two * (∑ d : Fin 768, X (ix2 p d) * Ct (ix2 d k)) + N (ix2 (0 : Fin 1) k)) * negHalf) * Wt (ix2 k q))
        + B (ix2 (0 : Fin 1) q) := by
  rw [pay_eq, addf_apply, broadcastTo_1b_ab_apply,
    Cert.LibBlock.matmul_zero_ix2 dot_S256x3072_S3072x768_S256x768_1_0_0_1_n_n rfl rfl rfl rfl rfl rfl]
  refine congrArg (· + _) (Finset.sum_congr rfl fun k _ => ?_)
  show Ideal.exp (dist X Ct N (ix2 p k) * negHalf) * Wt (ix2 k q) = _
  rw [dist_apply]

end Body

/-- A block whose rows are the tokens `(b, l)`-th row, set beside the centers transposed, their norms, the weights
    transposed and the bias, stores the layer's values of that token. -/
theorem pay_layer (x : Tokens.Idx → EReal) (c : Centers.Idx → EReal) (w : Weights.Idx → EReal) (β : Bias.Idx → EReal)
    (X : FVec Ideal S256x768 .f32) (Ct : FVec Ideal S768x3072 .bf16) (N : FVec Ideal S1x3072 .f32)
    (Wt : FVec Ideal S3072x768 .bf16) (B : FVec Ideal S1x768 .f32) (p : Fin 256) (q : Fin 768) (b : Fin 4) (l : Fin 4096)
    (hX : ∀ d : Fin 768, X (ix2 p d) = x (ix3 b l d)) (hC : ∀ (d : Fin 768) (k : Fin 3072), Ct (ix2 d k) = c (ix2 k d))
    (hN : ∀ k : Fin 3072, N (ix2 (0 : Fin 1) k) = centerSq c k) (hW : ∀ k : Fin 3072, Wt (ix2 k q) = w (ix2 q k))
    (hB : B (ix2 (0 : Fin 1) q) = β (ix1 q)) :
    k0_pay1 (F := Ideal) X Ct N Wt B (ix2 p q) = out x c w β b l q := by
  rw [pay_apply, hB]
  simp only [hX, hC, hN, hW]
  rfl

end Cert.Rbf.Block

end
-- ==== Proof.RbfKernel.lean ====
/-
  The kernel's result array, and the program's result after the reshape behind it.

  The grid has 64 points; point `t` reads rows `256 t … 256 t + 255` of the token rows and the whole of the four other
  arrays, and writes back rows `256 t … 256 t + 255` of the `[16384, 768]` result. What it writes is the block of ONE
  array, the layer's values laid out by rows, because each row of the block is a token and the body computes that
  token's values. The 64 blocks tile the result (row `r` lies in block `r / 256`), so the array ends holding the layer
  by rows; the reshape after the grid undoes the one before it.
-/
import proofs.«150898_j61186104098896_1_alg».proof.Proof.Gen.KernelIdeal.Frame
import proofs.«150898_j61186104098896_1_alg».proof.Proof.RbfHost
import proofs.«150898_j61186104098896_1_alg».proof.Proof.RbfBlock
import Idealize.ShloMosaic.Lib.Pipeline.Value
import Idealize.ShloMosaic.Lib.StableHlo.Run

noncomputable section

open scoped BigOperators

namespace Cert.Rbf.Kernel

open Cert.KernelIdeal Cert.KernelIdeal.Gen Idealize.ShloMosaic Idealize.ShloMosaic.TcCoe Idealize.SL.Sem
open Idealize.ShloMosaic.StableHlo Idealize.ShloMosaic.ValueIdx Cert.Rbf Cert.Rbf.Host
open Idealize.ShloMosaic.Pipeline (Dat)

variable (m : (ℓ : Loc nD τ sig) → Buf (Elt Ideal) ℓ) (ρ : Dev nD → PrngReg)

/-- The layer of core `c`'s four arguments. -/
abbrev result (c : Dev nD) : Tokens.Idx → EReal := layer (tokens m c) (centers m c) (weights m c) (bias m c)

/-- The same values laid out as `16384` rows. -/
def resultRows (c : Dev nD) : S16384x768.Idx → EReal :=
  shapeCast S16384x768 (result m c) shapeCasts_S4x4096x768_S16384x768

/-- Row `r`, feature `q` of the rows is the layer at token `(r / 4096, r % 4096)`. -/
theorem resultRows_apply (c : Dev nD) (r : Fin 16384) (q : Fin 768) :
    resultRows m c (ix2 r q) = out (tokens m c) (centers m c) (weights m c) (bias m c)
      (⟨r.val / 4096, by omega⟩ : Fin 4) (⟨r.val % 4096, Nat.mod_lt _ (by decide)⟩ : Fin 4096) q := by
  unfold resultRows
  refine (shapeCast_apply _ _ _ (ix3 (⟨r.val / 4096, by omega⟩ : Fin 4) (⟨r.val % 4096, Nat.mod_lt _ (by decide)⟩ : Fin 4096) q) ?_).trans rfl
  rw [Shape.rowMajor_val_three, Shape.rowMajor_val_two]
  show (r.val / 4096 * 4096 + r.val % 4096) * 768 + q.val = r.val * 768 + q.val
  have := Nat.div_add_mod' r.val 4096
  omega

/-- The block indices over the grid: the token rows and the result move with the point, the other four stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The five input blocks at a point, read at an index -/

/-- Row `p` of the point's block of rows is row `256 t + p`. -/
theorem rowsBlock_apply (c : Dev nD) (t : Fin cfg0.N) (p : Fin 256) (d : Fin 768) (r : Fin 16384)
    (hr : r.val = t.val * 256 + p.val) :
    (iblk m c 0 t : Vec Ideal S256x768 .f32) (ix2 p d) = (V m c main_v0 : S16384x768.Idx → EReal) (ix2 r d) := by
  obtain ⟨e0, e1, -⟩ := idx_facts t
  unfold iblk
  rw [View.read_apply]
  show V m c main_v0 _ = V m c main_v0 _
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 768 + 1 * d.val = d.val; rw [e1]; omega

/-- The transposed centers are read whole at every point. -/
theorem centersBlock_apply (c : Dev nD) (t : Fin cfg0.N) (d : Fin 768) (k : Fin 3072) :
    (iblk m c 1 t : Vec Ideal S768x3072 .bf16) (ix2 d k) = (V m c main_v2 : S768x3072.Idx → EReal) (ix2 d k) := by
  obtain ⟨-, -, e0, e1, -⟩ := idx_facts t
  unfold iblk
  rw [View.read_apply]
  show V m c main_v2 _ = V m c main_v2 _
  refine congrArg _ (funext fun a => Fin.ext ?_)
  match a with
  | ⟨0, _⟩ => show win0_1.index t (0 : Fin 2) * 768 + 1 * d.val = d.val; rw [e0]; omega
  | ⟨1, _⟩ => show win0_1.index t (1 : Fin 2) * 3072 + 1 * k.val = k.val; rw [e1]; omega

/-- The transposed weights are read whole at every point. -/
theorem weightsBlock_apply (c : Dev nD) (t : Fin cfg0.N) (k : Fin 3072) (q : Fin 768) :
    (iblk m c 2 t : Vec Ideal S3072x768 .bf16) (ix2 k q) = (V m c main_v4 : S3072x768.Idx → EReal) (ix2 k q) := by
  obtain ⟨-, -, -, -, e0, e1, -⟩ := idx_facts t
  unfold iblk
  rw [View.read_apply]
  show V m c main_v4 _ = V m c main_v4 _
  refine congrArg _ (funext fun a => Fin.ext ?_)
  match a with
  | ⟨0, _⟩ => show win0_2.index t (0 : Fin 2) * 3072 + 1 * k.val = k.val; rw [e0]; omega
  | ⟨1, _⟩ => show win0_2.index t (1 : Fin 2) * 768 + 1 * q.val = q.val; rw [e1]; omega

/-- The row of center norms is read whole at every point. -/
theorem normsBlock_apply (c : Dev nD) (t : Fin cfg0.N) (k : Fin 3072) :
    (iblk m c 3 t : Vec Ideal S1x3072 .f32) (ix2 (0 : Fin 1) k) = (V m c main_v7 : S1x3072.Idx → EReal) (ix2 (0 : Fin 1) k) := by
  obtain ⟨-, -, -, -, -, -, e0, e1, -⟩ := idx_facts t
  unfold iblk
  rw [View.read_apply]
  show V m c main_v7 _ = V m c main_v7 _
  refine congrArg _ (funext fun a => Fin.ext ?_)
  match a with
  | ⟨0, _⟩ => show win0_3.index t (0 : Fin 2) * 1 + 1 * 0 = 0; rw [e0]
  | ⟨1, _⟩ => show win0_3.index t (1 : Fin 2) * 3072 + 1 * k.val = k.val; rw [e1]; omega

/-- The bias row is read whole at every point. -/
theorem biasBlock_apply (c : Dev nD) (t : Fin cfg0.N) (q : Fin 768) :
    (iblk m c 4 t : Vec Ideal S1x768 .f32) (ix2 (0 : Fin 1) q) = (V m c main_v8 : S1x768.Idx → EReal) (ix2 (0 : Fin 1) q) := by
  obtain ⟨-, -, -, -, -, -, -, -, e0, e1, -⟩ := idx_facts t
  unfold iblk
  rw [View.read_apply]
  show V m c main_v8 _ = V m c main_v8 _
  refine congrArg _ (funext fun a => Fin.ext ?_)
  match a with
  | ⟨0, _⟩ => show win0_4.index t (0 : Fin 2) * 1 + 1 * 0 = 0; rw [e0]
  | ⟨1, _⟩ => show win0_4.index t (1 : Fin 2) * 768 + 1 * q.val = q.val; rw [e1]; omega

/-! ## What a point writes back -/

/-- Point `t` writes back block `t` of the layer laid out by rows. -/
theorem flushed_eq (c : Dev nD) (t : Fin cfg0.N) :
    (dats m 0 c).flushed 5 t = ((cfg0.win 5).blk t).view.read (Elt Ideal) (resultRows m c) := by
  have hN : cfg0.N = 64 := N_0
  have ht : t.val < 64 := hN ▸ t.isLt
  show (cfg0.win 5).cut (grid0.coords t) ((dats m 0 c).after 5 t) = _
  rw [after0_5]
  unfold out0_5
  rw [View.canon_unit_zero Cert.LibBlock.hz]
  simp only [View.ld_unit_zero (S := S256x768) Cert.LibBlock.hz, View.ld_unit_zero (S := S768x3072) Cert.LibBlock.hz,
    View.ld_unit_zero (S := S1x3072) Cert.LibBlock.hz, View.ld_unit_zero (S := S3072x768) Cert.LibBlock.hz,
    View.ld_unit_zero (S := S1x768) Cert.LibBlock.hz]
  funext j
  obtain ⟨p, q, rfl⟩ : ∃ (p : Fin 256) (q : Fin 768), j = ix2 p q := ⟨j 0, j 1, eq_ix2 j⟩
  obtain ⟨-, -, -, -, -, -, -, -, -, -, e0, e1⟩ := idx_facts t
  have hr : t.val * 256 + p.val < 16384 := by omega
  have hemb : ((cfg0.win 5).blk t).view.emb (ix2 p q) = ix2 (⟨t.val * 256 + p.val, hr⟩ : Fin 16384) q := by
    funext a
    apply Fin.ext
    match a with
    | ⟨0, _⟩ => show win0_5.index t (0 : Fin 2) * 256 + 1 * p.val = t.val * 256 + p.val; rw [e0]; omega
    | ⟨1, _⟩ => show win0_5.index t (1 : Fin 2) * 768 + 1 * q.val = q.val; rw [e1]; omega
  show k0_pay1 (F := Ideal) (iblk m c 0 t) (iblk m c 1 t) (iblk m c 3 t) (iblk m c 2 t) (iblk m c 4 t) (ix2 p q)
    = resultRows m c (((cfg0.win 5).blk t).view.emb (ix2 p q))
  rw [hemb, resultRows_apply]
  refine Cert.Rbf.Block.pay_layer (tokens m c) (centers m c) (weights m c) (bias m c)
    (iblk m c 0 t) (iblk m c 1 t) (iblk m c 3 t) (iblk m c 2 t) (iblk m c 4 t) p q _ _ ?_ ?_ ?_ ?_ ?_
  · intro d
    rw [rowsBlock_apply m c t p d ⟨t.val * 256 + p.val, hr⟩ rfl, rows_apply]
  · intro d k
    rw [centersBlock_apply, centersT_apply]
  · intro k
    rw [normsBlock_apply, norms_apply]
  · intro k
    rw [weightsBlock_apply, weightsT_apply]
  · rw [biasBlock_apply, biasRow_apply]

/-! ## The 64 blocks tile the result -/

/-- A row-and-feature index lies in point `t`'s block iff its row is one of the block's 256. -/
theorem mem_blk (t : Fin cfg0.N) (i : S16384x768.Idx) :
    i ∈ ((cfg0.win 5).blk t).view.set ↔ ∀ a : Fin 2, win0_5.index t a * S256x768.size a ≤ (i a).val
      ∧ (i a).val < win0_5.index t a * S256x768.size a + S256x768.size a := by
  show i ∈ ((View.whole main_v9).slice (win0_5.rect t)).set ↔ _
  rw [View.set_slice_whole, Rect.mem_set_unit]
  exact Iff.rfl

/-- Row `r` lies in the block of point `r / 256`, which writes back. -/
theorem cover (i : S16384x768.Idx) :
    ∃ t : Fin cfg0.N, (cfg0.win 5).flush t = true ∧ i ∈ ((cfg0.win 5).blk t).view.set := by
  have hN : cfg0.N = 64 := N_0
  have hi0 : (i 0).val < 16384 := (i 0).isLt
  have hi1 : (i 1).val < 768 := (i 1).isLt
  obtain ⟨t, htv⟩ : ∃ t : Fin cfg0.N, t.val = (i 0).val / 256 := ⟨⟨(i 0).val / 256, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, htv]; omega
  | ⟨1, _⟩ =>
    show win0_5.index t (1 : Fin 2) * 768 ≤ (i 1).val ∧ (i 1).val < win0_5.index t (1 : Fin 2) * 768 + 768
    rw [e1]; omega

/-- After the grid the result array holds the layer laid out by rows. -/
theorem final (c : Dev nD) : (dats m 0 c).arrAt 5 cfg0.N = resultRows m c :=
  (dats m 0 c).arrAt_eq_of_cover 5 (resultRows m c) (fun t _ => flushed_eq m c t) cover

/-! ## The reshape after the grid, and the run -/

/-- The program's result: the rows reshaped back to the tokens' shape is the layer. -/
theorem tail_eq (c : Dev nD) :
    Pipeline.afterTail₀ cfgs (dats m) 0 (V0 m) [hostOps1] c main_v10 = result m c := by
  have hA : Pipeline.withArrays spec0 c (V0 m c) (fun w => (dats m 0 c).arrAt w cfg0.N) (Proc.devRef .tc main_v9)
      = resultRows m c :=
    (Pipeline.withArrays_arr spec0 launch0.win.arr_inj c _ _ 5).trans (final m c)
  unfold Pipeline.afterTail₀
  show StableHlo.after hostOps1 _ (Proc.devRef .tc main_v10) = _
  after_results
  rw [hA]
  exact shapeCast_shapeCast (result m c) shapeCasts_S4x4096x768_S16384x768 shapeCasts_S16384x768_S4x4096x768

/-- Every weakly fair execution of the kernel's program ends with the layer in its result and its arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Rbf.Kernel

end
-- ==== Proof.lean ====
/-
  A radial-basis feed-forward layer on the TPU against its jnp reference, on the extended reals.

  Both programs take tokens `x : [4, 4096, 768]`, centers `c : [3072, 768]`, projection weights `w : [768, 3072]` and a
  bias `β : [768]`, and both return, at token `(b, l)` and feature `d`,

      ∑ₖ exp ((‖x (b, l)‖² - 2 · ⟨x (b, l), c k⟩ + ‖c k‖²) · (-1/2)) · w (d, k) + β d.

  The kernel works on the tokens as `16384` rows, 256 rows per grid point, with the centers and weights transposed and
  the center norms summed beforehand; its two matrix products and its row sum are plain sums on the extended reals, its
  changes of float format the identity. The reference contracts the same axes in place and writes the exponent as
  `-(dist²) / 2`; the one law between the two sides is `(-t) / 2 = t · (-1/2)`, which holds at every extended real, so
  the finiteness of the inputs is never used. No operation was rewritten when the kernel was idealized, so that claim
  is trivial; the three frames are the generated ones (the reference's is its run with the result dropped).
-/
import proofs.«150898_j61186104098896_1_alg».proof.Defs
import proofs.«150898_j61186104098896_1_alg».proof.Proof.Gen.Kernel
import proofs.«150898_j61186104098896_1_alg».proof.Proof.Gen.Kernel.Frame
import proofs.«150898_j61186104098896_1_alg».proof.Proof.Gen.KernelIdeal
import proofs.«150898_j61186104098896_1_alg».proof.Proof.Gen.KernelIdeal.Frame
import proofs.«150898_j61186104098896_1_alg».proof.Proof.Gen.ReferenceIdeal
import proofs.«150898_j61186104098896_1_alg».proof.Proof.Gen.Pre_finite_inputs
import proofs.«150898_j61186104098896_1_alg».proof.Proof.Gen.ReferenceIdeal.Run
import proofs.«150898_j61186104098896_1_alg».proof.Proof.Gen.ReferenceIdeal.Read
import proofs.«150898_j61186104098896_1_alg».proof.Proof.RbfReference
import proofs.«150898_j61186104098896_1_alg».proof.Proof.RbfKernel

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the four arguments, the kernel's program and the reference both end with the layer of
    those arguments in their result. -/
theorem algebraic : Cert.algebraic_KernelIdeal_ReferenceIdeal := by
  intro m ρ m' ρ' _ hagree
  refine ⟨fun c => Cert.Rbf.Kernel.result m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Rbf.Reference.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
